-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S64x2048 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S64x2048 : Shape := ⟨2, ![64, 2048]⟩
abbrev S64 : Shape := ⟨1, ![64]⟩
abbrev S16384x64 : Shape := ⟨2, ![16384, 64]⟩
abbrev S1024x2048 : Shape := ⟨2, ![1024, 2048]⟩
abbrev S2048x64 : Shape := ⟨2, ![2048, 64]⟩
abbrev S1024x64 : Shape := ⟨2, ![1024, 64]⟩
abbrev S1x64 : Shape := ⟨2, ![1, 64]⟩
abbrev S1024 : Shape := ⟨1, ![1024]⟩
abbrev S1024x1 : Shape := ⟨2, ![1024, 1]⟩

abbrev nBuf : Space → Nat
  | .hbm => 4
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S64, .f32⟩
  | .local _ .vmem, ⟨6, _⟩ => ⟨S2048x64, .f32⟩
  | .local _ .vmem, ⟨7, _⟩ => ⟨S2048x64, .f32⟩
  | .local _ .vmem, ⟨8, _⟩ => ⟨S2048x64, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S64x2048_S64x2048_0_0 : ∀ a, (![0, 0] : Fin 2 → Nat) a + S64x2048.size a ≤ S64x2048.size a
  h_S64x2048 : 0 < S64x2048.numel
  transposes_S64x2048_p1_0_S2048x64 : S64x2048.Transposes [1, 0] S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S64_S64_0 : ∀ a, (![0] : Fin 1 → Nat) a + S64.size a ≤ S64.size a
  h_S64 : 0 < S64.numel
  inb_S1024x2048_S1024x2048_0_0 : ∀ a, (![0, 0] : Fin 2 → Nat) a + S1024x2048.size a ≤ S1024x2048.size a
  h_S1024x2048 : 0 < S1024x2048.numel
  shapeCasts_S64_S1x64 : S64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S2048x64_S1024x64_0_0 : ∀ a, (![0, 0] : Fin 2 → Nat) a + S1024x64.size a ≤ S2048x64.size a
  h_S1024x64 : 0 < S1024x64.numel
  inb_S2048x64_S1024x64_1024_0 : ∀ a, (![1024, 0] : Fin 2 → Nat) a + S1024x64.size a ≤ S2048x64.size a
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S16384x64.size a
  hwx0_4 : ∀ i : grid0.Coords, EltTy.bits .f32 = 32 ∨ (Rect.block (s := S16384x64) S2048x64.size (cc0_transform_4 i) (hinb0_4 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x64, .f32⟩
  | .hbm, ⟨21, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.KBxRuns.lean ====
/-
  The gating kernel's region, point by point: what every proof about its run shares.
  The region has eight grid points. At point t the two input streams hold rows 2048·t … 2048·t + 1023 and
  2048·t + 1024 … 2048·t + 2047 of x (two windows on ONE array), the weight W and the bias b are fetched once
  (their block index never moves), and the output block is rows 2048·t … 2048·t + 2047 of the result. The
  body branches once, on "t = 0": only there does it store the transposed weight into its scratch buffer,
  which every later point reads back. Stated here: the arrays as the region finds them, each window's block
  at a point, the branch condition in closed form, and the staging memrefs the body is called with.
-/
import proofs.«145414_g46497315947021_cont_8to1c4_729_11_alg».proof.Proof.Gen.Kernel.Launch
import proofs.«145414_g46497315947021_cont_8to1c4_729_11_alg».proof.Proof.Gen.Kernel.Skeleton
import proofs.«145414_g46497315947021_cont_8to1c4_729_11_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch contents (the program is the region alone). -/
abbrev V (c : Dev nD) (b : Ref sig .tc) : Buf (Elt F) ((c : Thread nD τ).loc b) := m ((c : Thread nD τ).loc b)

/-- The program reduces to its one region, entered at the launch contents. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data whose array is the entry contents and whose body leaves the block
    in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinate: "this is the first point". -/
abbrev cond0_0 (i : grid0.Coords) : Prop := (Scalar.cmpi .ne (Scalar.extui (Scalar.cmpi .eq (BitVec.ofNat 32 (i 0).val) 0#32)) 0#32) = 1#1
/-- It holds at point 0 only — decided over the eight points. -/
theorem hcond0_0 : ∀ t : Fin cfg0.N, cond0_0 (grid0.coords t) ↔ t.val = 0 :=
  (by decide +kernel : ∀ t : Fin grid0.N, cond0_0 (grid0.coords t) ↔ t.val = 0)

/-- No window is ever idle. -/
theorem liveAt0 : ∀ (w : Fin cfg0.W) (t : Fin cfg0.N), cfg0.idle w (grid0.coords t) = false := by decide +kernel

/-! ## The memrefs the body is called with -/

/-- One staging buffer of the output window, through which its contents are stated (the choice does not matter). -/
abbrev VO0_4 : View sig .tc .vmem S2048x64 .f32 := (Memref.whole cc0_stg4_0 : Memref sig .tc .vmem S2048x64 .f32).view
/-- Each window's current staging memref at point `t`, as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x64 .f32 := win0_4.stage (cfg0.slots t 4)
abbrev hs0_4 (t : Fin cfg0.N) : (ms0_4 t).IsWhole := hstage0_4 ((cfg0.slots t 4).cast nbuf0_4)
/-- The scratch operand: a whole scoped buffer of the kernel's own, passed beside the windows. -/
abbrev scM0_0 : Memref sig .tc .vmem S2048x64 .bf16 := Memref.whole cc0_scratch0
/-- The scratch as a view: what it holds between points is stated through it. -/
abbrev VS0_0 : View sig .tc .vmem S2048x64 .bf16 := scM0_0.view

/-- The region invariant of a kernel that names no scratch contents, with the scratch operand as a memref owned at
    some contents: what the launch hands the first point and takes back after the last. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KBxRunA.lean ====
/-
  The kernel body at the FIRST grid point, where its branch is taken: it stores the transposed weight into the
  scratch buffer, reads it back, and stores the two halves of the output block (one per input stream). Stated as
  the body's triple on any whole staging memrefs, with the pieces its stores leave in the output block and in the
  scratch as the witness the symbolic run finds.
-/
import proofs.«145414_g46497315947021_cont_8to1c4_729_11_alg».proof.Proof.KBxRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point (the branch taken): on whole memrefs — the four inputs at their contents, the output block and
    the scratch at anything — the body runs to the continuation holding the inputs as they were, the output block
    with the pieces `L4` written and the scratch with the pieces `LS0` written. The pieces are found by the run. -/
noncomputable def kernelRun0_A (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : cond0_0 i)
    (x0 : Vec F S1024x2048 .f32) (x1 : Vec F S1024x2048 .f32) (x2 : Vec F S64x2048 .f32) (x3 : Vec F S64 .f32) :
    Σ' (L4 : List (View.Piece (Elt F) S2048x64 .f32)), { LS0 : List (View.Piece (Elt F) S2048x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__gate_kernel i arg1 harg1 arg2 harg2 arg3 harg3 arg4 harg4 arg5 harg5 arg6 harg6) K } := by
  refine ⟨?_, ?_, fun E K => ?run⟩
  case run =>
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Hand

end
-- ==== Proof.KBxRunB.lean ====
/-
  The kernel body at every LATER grid point, where its branch is not taken: it reads the scratch buffer as the
  point before left it and stores the two halves of the output block. Stated as the body's triple on any whole
  staging memrefs, the scratch at given contents `xs0` and handed back untouched, with the pieces its stores leave in
  the output block as the witness the symbolic run finds.
-/
import proofs.«145414_g46497315947021_cont_8to1c4_729_11_alg».proof.Proof.KBxRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a later point (the branch not taken): on whole memrefs — the four inputs and the scratch at their contents, the
    output block at anything — the body runs to the continuation holding the inputs and the scratch as they were and
    the output block with the pieces `L4` written. The pieces are found by the run. -/
noncomputable def kernelRun0_B (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : ¬cond0_0 i)
    (x0 : Vec F S1024x2048 .f32) (x1 : Vec F S1024x2048 .f32) (x2 : Vec F S64x2048 .f32) (x3 : Vec F S64 .f32) (xs0 : Vec F S2048x64 .bf16) :
    { L4 : List (View.Piece (Elt F) S2048x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc0__gate_kernel i arg1 harg1 arg2 harg2 arg3 harg3 arg4 harg4 arg5 harg5 arg6 harg6) K } := by
  refine ⟨?_, fun E K => ?run⟩
  case run =>
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.Kernel.Hand

end
-- ==== Proof.LibSharedFrame.lean ====
/-
  The frame run of one pipeline region whose input windows may read the SAME array.

  The library's frame run (Lib/Pipeline/Frame.lean, `θ_run_frame_track`) asks that the windows' arrays be distinct
  and that every window hold its array at the full share. Here the arrays need not be distinct (`WinFacts₀`): in place
  of the full shares the certificate says how the DISTINCT buffers behind the arrays, each whole at the full share
  at the region's entry contents, make the proof data's per-window points-tos at entry (`hsplit`) — an array read by
  several input windows is dealt among them by splitting its share. Everything else is the library's frame run: the
  class invariant `ΦA` (the scoped rest at some contents, the generator register at some state) enters the
  certificate's invariant before point 0 and comes back after the last point, the unscoped buffers that are no
  window's array bypass the region and are read back unchanged.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section FrameShared

variable {Λ₀ : SL.Sem.Labels} {P : Type} [Fintype P] [DecidableEq P] [∀ e, Nonempty (Val e)]

local notation "𝕄" => MT nD τ sig Unit Val ℕ (UR sig nD τ) ℕ

/-- THE FRAME RUN with a tracking invariant, for one region whose INPUT WINDOWS MAY SHARE ARRAYS. The windows' facts
    are `WinFacts₀` (the arrays need not be distinct); the shares are dealt by `hsplit`: the distinct buffers behind
    the arrays, each whole at the full share at the entry contents `V c`, yield the proof data's points-tos of every
    window at entry. The proof data's `Φ` is any invariant stated point by point, entered from the class invariant
    `ΦA` before point 0 (`hin`) and returned to it after the last point (`hout`). Concludes `FramePost`: every
    window's array holds the data's `arrAt w N` (windows on one array end holding the same contents), every other
    unscoped buffer what it held at the region's entry. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp (MT nD τ sig Unit Val ℕ (UR sig nD τ) ℕ)) ⊢ (dats p c).arrays ((dats p c).arrAt · 0))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  exact θ_run_region_pf (fun q => (cfgs q).toPCfg (Val := Val)) (fun q => (cfgs q).toPCfg_adm) dats () hinj p hw
    (OwnSemFacts.none (cfgs p).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [unscopedRestP_none]
      iintro ⟨HU, -, -, -, Hp, -⟩; imodintro
      isplitl [Hp]; · iexists _; iexact Hp
      iexact HU)
    (hin := fun c => (show _ ⊢ ΦA (cfgs p).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

end FrameShared

end Pipeline

end Idealize.ShloMosaic
-- ==== Proof.KBxSplit.lean ====
/-
  The launch of the region's arrays when two input windows read one array.

  The region has five windows: windows 0 and 1 read the same array, windows 2 and 3 read an array each, window 4 is
  the output. The distinct buffers behind the windows' arrays, each whole at the full share at contents `V`, yield the
  per-window points-tos the pipeline holds at entry: the shared array's full share is split into its two halves, one
  for each of its two windows; every other array goes whole to its one window.
-/
import proofs.«145414_g46497315947021_cont_8to1c4_729_11_alg».proof.Proof.Gen.Kernel.Launch
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

set_option Elab.async false

variable {F : FTy → Type} [FloatOps F]

local notation "𝕄" => MT nD τ sig Unit (Elt F) ℕ (UR sig nD τ) ℕ

theorem arrays_split_shared (c : Dev nD) (dat : Pipeline.Dat τ (Elt F) Unit ℕ (UR sig nD τ) ℕ cfg0 c)
    (V : (b : Ref sig .tc) → Buf (Elt F) ((c : Thread nD τ).loc b))
    (hA : ∀ w, dat.A w = V (Pipeline.arrRef spec0 w))
    (hq0 : dat.q 0 = fullShare.left) (hq1 : dat.q 1 = fullShare.right) (hq2 : dat.q 2 = fullShare) (hq3 : dat.q 3 = fullShare) :
    (Pipeline.arrBufs spec0 c V : sProp 𝕄) ⊢ dat.arrays (dat.arrAt · 0) := by
  have hAr : dat.arrays (dat.arrAt · 0)
      = bigSep Finset.univ fun w : Fin 5 => (((c : Thread nD τ).loc (Pipeline.arrRef spec0 w)) ↦{dat.share w} V (Pipeline.arrRef spec0 w) : sProp 𝕄) := by
    unfold Pipeline.Dat.arrays
    exact bigSep_congr fun w _ => by
      rw [(arr_whole0 w).set_eq_univ]
      show (_ ↦{dat.share w} dat.A w : sProp 𝕄) = _
      rw [hA w]
  rw [hAr, bigSep_W0]
  unfold Pipeline.arrBufs
  rw [bigSep_eq_bigSepL_of_eq [main_arg0, main_arg1, main_arg2, main_v0] (by decide) (by decide)]
  have hs0 : dat.share 0 = fullShare.left := by unfold Pipeline.Dat.share; rw [← hq0]; rfl
  have hs1 : dat.share 1 = fullShare.right := by unfold Pipeline.Dat.share; rw [← hq1]; rfl
  have hs2 : dat.share 2 = fullShare := by unfold Pipeline.Dat.share; rw [← hq2]; rfl
  have hs3 : dat.share 3 = fullShare := by unfold Pipeline.Dat.share; rw [← hq3]; rfl
  have hs4 : dat.share 4 = fullShare := rfl
  rw [hs0, hs1, hs2, hs3, hs4]
  show iprop((((c : Thread nD τ).loc main_arg0 ↦{fullShare} V main_arg0 : sProp 𝕄)) ∗ ((c : Thread nD τ).loc main_arg1 ↦{fullShare} V main_arg1)
      ∗ ((c : Thread nD τ).loc main_arg2 ↦{fullShare} V main_arg2) ∗ ((c : Thread nD τ).loc main_v0 ↦{fullShare} V main_v0))
    ⊢ iprop((((c : Thread nD τ).loc main_arg0 ↦{fullShare.left} V main_arg0 : sProp 𝕄)) ∗ ((c : Thread nD τ).loc main_arg0 ↦{fullShare.right} V main_arg0)
      ∗ ((c : Thread nD τ).loc main_arg1 ↦{fullShare} V main_arg1) ∗ ((c : Thread nD τ).loc main_arg2 ↦{fullShare} V main_arg2)
      ∗ ((c : Thread nD τ).loc main_v0 ↦{fullShare} V main_v0))
  iintro ⟨H0, H1, H2, H3⟩
  -- the shared array's full share, halved: one half for each of its two windows
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  iexact H3

end Cert.Kernel.Hand
-- ==== Proof.KBxFrame.lean ====
/-
  The frame of the gating kernel's region: what the output block and the scratch hold after each grid point, the
  proof data of the pipeline, the body obligation at a generic point, and the run. The scratch is written at the
  first point (the transposed weight) and carried unchanged through the later ones, so the region invariant before
  a later point names its contents. The two input streams are two windows on ONE array: each holds a half share of
  it, which is how the launch deals the array between them.
-/
import proofs.«145414_g46497315947021_cont_8to1c4_729_11_alg».proof.Proof.KBxRunB
import proofs.«145414_g46497315947021_cont_8to1c4_729_11_alg».proof.Proof.LibSharedFrame
import proofs.«145414_g46497315947021_cont_8to1c4_729_11_alg».proof.Proof.KBxSplit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores of each case leave -/

/-- At the first point the two stores into the output block tile it, so they cover it. -/
theorem cover0_A_4 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : cond0_0 i)
    (x0 : Vec F S1024x2048 .f32) (x1 : Vec F S1024x2048 .f32) (x2 : Vec F S64x2048 .f32) (x3 : Vec F S64 .f32) (y : S2048x64.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S1024x64.size (by sl_kernel_rfl) y

/-- What the first point leaves in the output block: its pieces read back. -/
def out0_A_4 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : cond0_0 i)
    (x0 : Vec F S1024x2048 .f32) (x1 : Vec F S1024x2048 .f32) (x2 : Vec F S64x2048 .f32) (x3 : Vec F S64 .f32) : Vec F S2048x64 .f32 :=
  VO0_4.read (Elt F) (VO0_4.writes (Elt F) VO0_4.junk (kernelRun0_A c i arg1 harg1 arg2 harg2 arg3 harg3 arg4 harg4 arg5 harg5 arg6 harg6 hc0 x0 x1 x2 x3).1)

/-- At the first point the one store into the scratch covers it. -/
theorem scover0_A_0 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : cond0_0 i)
    (x0 : Vec F S1024x2048 .f32) (x1 : Vec F S1024x2048 .f32) (x2 : Vec F S64x2048 .f32) (x3 : Vec F S64 .f32) (y : S2048x64.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S2048x64.size (by sl_kernel_rfl) y

/-- What the first point leaves in the scratch: its piece read back. -/
def sout0_A_0 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : cond0_0 i)
    (x0 : Vec F S1024x2048 .f32) (x1 : Vec F S1024x2048 .f32) (x2 : Vec F S64x2048 .f32) (x3 : Vec F S64 .f32) : Vec F S2048x64 .bf16 :=
  VS0_0.read (Elt F) (VS0_0.writes (Elt F) VS0_0.junk (kernelRun0_A c i arg1 harg1 arg2 harg2 arg3 harg3 arg4 harg4 arg5 harg5 arg6 harg6 hc0 x0 x1 x2 x3).2.1)

/-- At a later point the two stores into the output block tile it, so they cover it. -/
theorem cover0_B_4 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : ¬cond0_0 i)
    (x0 : Vec F S1024x2048 .f32) (x1 : Vec F S1024x2048 .f32) (x2 : Vec F S64x2048 .f32) (x3 : Vec F S64 .f32) (xs0 : Vec F S2048x64 .bf16) (y : S2048x64.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S1024x64.size (by sl_kernel_rfl) y

/-- What a later point leaves in the output block: its pieces read back. -/
def out0_B_4 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : ¬cond0_0 i)
    (x0 : Vec F S1024x2048 .f32) (x1 : Vec F S1024x2048 .f32) (x2 : Vec F S64x2048 .f32) (x3 : Vec F S64 .f32) (xs0 : Vec F S2048x64 .bf16) : Vec F S2048x64 .f32 :=
  VO0_4.read (Elt F) (VO0_4.writes (Elt F) VO0_4.junk (kernelRun0_B c i arg1 harg1 arg2 harg2 arg3 harg3 arg4 harg4 arg5 harg5 arg6 harg6 hc0 x0 x1 x2 x3 xs0).1)

/-! ## What the output block and the scratch hold after each point -/

/-- After the body at position `n`: the output block's staging buffer and the scratch. The first point runs the
    branch-taken case on the point's input blocks; a later point runs the other case on its input blocks and on the
    scratch as the point before left it, and leaves the scratch as it found it. -/
def outsAt0 (c : Dev nD) : (n : ℕ) → n < cfg0.N → Vec F S2048x64 .f32 × Vec F S2048x64 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩))
  | n + 1, hn => (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
      (outsAt0 c n (Nat.lt_of_succ_lt hn)).2)

/-- `outsAt0` at the first point. -/
theorem outsAt0_A (c : Dev nD) (t : Fin cfg0.N) (h0 : t.val = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t),
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact absurd h0 (Nat.succ_ne_zero n)

/-- `outsAt0` at a later point, over what the point before left. -/
theorem outsAt0_B (c : Dev nD) (t : Fin cfg0.N) (h0 : ¬t.val = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact absurd rfl h0
  | succ n => exact rfl

/-- The region invariant before position `n`: before the first point the scratch holds anything; afterwards it holds
    what the point before left in it; the generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outsAt0`; the invariant `PhiS`; nothing owed; the array the
    two input streams share dealt in halves, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d
theorem before0_3 (c : Dev nD) (t : Fin cfg0.N) (d) : (dats m 0 c).before 3 t d = iblk m c 3 t :=
  before3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the closed form of the branch says which case the
    point is in; the invariant hands the body the scratch (at anything at the first point, at what the point before
    left otherwise) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0 0 t], after0_0]
  rw [show (dats m 0 c).leavesExact 1 t = owns (c : Thread nD τ) (ms0_1 t) fullShare ((dats m 0 c).after 1 t) from by
    unfold Dat.leavesExact; rw [liveAt0 1 t], after0_1]
  rw [show (dats m 0 c).leavesExact 2 t = owns (c : Thread nD τ) (ms0_2 t) fullShare ((dats m 0 c).after 2 t) from by
    unfold Dat.leavesExact; rw [liveAt0 2 t], after0_2]
  rw [show (dats m 0 c).leavesExact 3 t = owns (c : Thread nD τ) (ms0_3 t) fullShare ((dats m 0 c).after 3 t) from by
    unfold Dat.leavesExact; rw [liveAt0 3 t], after0_3]
  rw [show (dats m 0 c).leavesExact 4 t = owns (c : Thread nD τ) (ms0_4 t) fullShare ((dats m 0 c).after 4 t) from by
    unfold Dat.leavesExact; rw [liveAt0 4 t], after0_4]
  by_cases hz : t.val = 0
  · rw [outsAt0_A m c t hz]
    unfold out0_A_4 sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _)
  · rw [outsAt0_B m c t hz]
    unfold out0_B_4; (try dsimp only)
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => hz ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- From any memory with zero counters every weakly fair execution of the program terminates, and every final state
    has every array of the pipeline at what the library computes from the proof data. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0 defs₀ Variants.none m ρ main
    (fun c => (body_obligation m c).loose) (fun _ _ => rfl) (V m) (hmain m Variants.none)
    (fun c => arrays_split_shared c (dats m 0 c) (V m c) (A_eq m c) rfl rfl rfl rfl) (hin m) (hout m)

/-- The run with the result array named and the three argument arrays unchanged. -/
theorem run_out : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 4,
      ((h c).1 0).trans (((dats m 0 c).arrAt_in 0 rfl _).trans (A_eq m c 0)),
      ((h c).1 2).trans (((dats m 0 c).arrAt_in 2 rfl _).trans (A_eq m c 2)),
      ((h c).1 3).trans (((dats m 0 c).arrAt_in 3 rfl _).trans (A_eq m c 3))⟩) (run_main m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_out m ρ)

end Cert.Kernel.Hand

end
-- ==== Proof.KIxRuns.lean ====
/-
  The gating kernel's region, point by point: what every proof about its run shares.
  The region has eight grid points. At point t the two input streams hold rows 2048·t … 2048·t + 1023 and
  2048·t + 1024 … 2048·t + 2047 of x (two windows on ONE array), the weight W and the bias b are fetched once
  (their block index never moves), and the output block is rows 2048·t … 2048·t + 2047 of the result. The
  body branches once, on "t = 0": only there does it store the transposed weight into its scratch buffer,
  which every later point reads back. Stated here: the arrays as the region finds them, each window's block
  at a point, the branch condition in closed form, and the staging memrefs the body is called with.
-/
import proofs.«145414_g46497315947021_cont_8to1c4_729_11_alg».proof.Proof.Gen.KernelIdeal.Launch
import proofs.«145414_g46497315947021_cont_8to1c4_729_11_alg».proof.Proof.Gen.KernelIdeal.Skeleton
import proofs.«145414_g46497315947021_cont_8to1c4_729_11_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch contents (the program is the region alone). -/
abbrev V (c : Dev nD) (b : Ref sig .tc) : Buf (Elt F) ((c : Thread nD τ).loc b) := m ((c : Thread nD τ).loc b)

/-- The program reduces to its one region, entered at the launch contents. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data whose array is the entry contents and whose body leaves the block
    in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinate: "this is the first point". -/
abbrev cond0_0 (i : grid0.Coords) : Prop := (Scalar.cmpi .ne (Scalar.extui (Scalar.cmpi .eq (BitVec.ofNat 32 (i 0).val) 0#32)) 0#32) = 1#1
/-- It holds at point 0 only — decided over the eight points. -/
theorem hcond0_0 : ∀ t : Fin cfg0.N, cond0_0 (grid0.coords t) ↔ t.val = 0 :=
  (by decide +kernel : ∀ t : Fin grid0.N, cond0_0 (grid0.coords t) ↔ t.val = 0)

/-- No window is ever idle. -/
theorem liveAt0 : ∀ (w : Fin cfg0.W) (t : Fin cfg0.N), cfg0.idle w (grid0.coords t) = false := by decide +kernel

/-! ## The memrefs the body is called with -/

/-- One staging buffer of the output window, through which its contents are stated (the choice does not matter). -/
abbrev VO0_4 : View sig .tc .vmem S2048x64 .f32 := (Memref.whole cc0_stg4_0 : Memref sig .tc .vmem S2048x64 .f32).view
/-- Each window's current staging memref at point `t`, as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x64 .f32 := win0_4.stage (cfg0.slots t 4)
abbrev hs0_4 (t : Fin cfg0.N) : (ms0_4 t).IsWhole := hstage0_4 ((cfg0.slots t 4).cast nbuf0_4)
/-- The scratch operand: a whole scoped buffer of the kernel's own, passed beside the windows. -/
abbrev scM0_0 : Memref sig .tc .vmem S2048x64 .bf16 := Memref.whole cc0_scratch0
/-- The scratch as a view: what it holds between points is stated through it. -/
abbrev VS0_0 : View sig .tc .vmem S2048x64 .bf16 := scM0_0.view

/-- The region invariant of a kernel that names no scratch contents, with the scratch operand as a memref owned at
    some contents: what the launch hands the first point and takes back after the last. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KIxRunA.lean ====
/-
  The kernel body at the FIRST grid point, where its branch is taken: it stores the transposed weight into the
  scratch buffer, reads it back, and stores the two halves of the output block (one per input stream). Stated as
  the body's triple on any whole staging memrefs, with the pieces its stores leave in the output block and in the
  scratch as the witness the symbolic run finds.
-/
import proofs.«145414_g46497315947021_cont_8to1c4_729_11_alg».proof.Proof.KIxRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point (the branch taken): on whole memrefs — the four inputs at their contents, the output block and
    the scratch at anything — the body runs to the continuation holding the inputs as they were, the output block
    with the pieces `L4` written and the scratch with the pieces `LS0` written. The pieces are found by the run. -/
noncomputable def kernelRun0_A (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : cond0_0 i)
    (x0 : Vec F S1024x2048 .f32) (x1 : Vec F S1024x2048 .f32) (x2 : Vec F S64x2048 .f32) (x3 : Vec F S64 .f32) :
    Σ' (L4 : List (View.Piece (Elt F) S2048x64 .f32)), { LS0 : List (View.Piece (Elt F) S2048x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__gate_kernel i arg1 harg1 arg2 harg2 arg3 harg3 arg4 harg4 arg5 harg5 arg6 harg6) K } := by
  refine ⟨?_, ?_, fun E K => ?run⟩
  case run =>
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KIxRunB.lean ====
/-
  The kernel body at every LATER grid point, where its branch is not taken: it reads the scratch buffer as the
  point before left it and stores the two halves of the output block. Stated as the body's triple on any whole
  staging memrefs, the scratch at given contents `xs0` and handed back untouched, with the pieces its stores leave in
  the output block as the witness the symbolic run finds.
-/
import proofs.«145414_g46497315947021_cont_8to1c4_729_11_alg».proof.Proof.KIxRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a later point (the branch not taken): on whole memrefs — the four inputs and the scratch at their contents, the
    output block at anything — the body runs to the continuation holding the inputs and the scratch as they were and
    the output block with the pieces `L4` written. The pieces are found by the run. -/
noncomputable def kernelRun0_B (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : ¬cond0_0 i)
    (x0 : Vec F S1024x2048 .f32) (x1 : Vec F S1024x2048 .f32) (x2 : Vec F S64x2048 .f32) (x3 : Vec F S64 .f32) (xs0 : Vec F S2048x64 .bf16) :
    { L4 : List (View.Piece (Elt F) S2048x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc0__gate_kernel i arg1 harg1 arg2 harg2 arg3 harg3 arg4 harg4 arg5 harg5 arg6 harg6) K } := by
  refine ⟨?_, fun E K => ?run⟩
  case run =>
    simp only [cc0__gate_kernel_eq_skeleton]; unfold cc0__gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.KernelIdeal.Hand

end
-- ==== Proof.KIxSplit.lean ====
/-
  The launch of the region's arrays when two input windows read one array.

  The region has five windows: windows 0 and 1 read the same array, windows 2 and 3 read an array each, window 4 is
  the output. The distinct buffers behind the windows' arrays, each whole at the full share at contents `V`, yield the
  per-window points-tos the pipeline holds at entry: the shared array's full share is split into its two halves, one
  for each of its two windows; every other array goes whole to its one window.
-/
import proofs.«145414_g46497315947021_cont_8to1c4_729_11_alg».proof.Proof.Gen.KernelIdeal.Launch
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

set_option Elab.async false

variable {F : FTy → Type} [FloatOps F]

local notation "𝕄" => MT nD τ sig Unit (Elt F) ℕ (UR sig nD τ) ℕ

theorem arrays_split_shared (c : Dev nD) (dat : Pipeline.Dat τ (Elt F) Unit ℕ (UR sig nD τ) ℕ cfg0 c)
    (V : (b : Ref sig .tc) → Buf (Elt F) ((c : Thread nD τ).loc b))
    (hA : ∀ w, dat.A w = V (Pipeline.arrRef spec0 w))
    (hq0 : dat.q 0 = fullShare.left) (hq1 : dat.q 1 = fullShare.right) (hq2 : dat.q 2 = fullShare) (hq3 : dat.q 3 = fullShare) :
    (Pipeline.arrBufs spec0 c V : sProp 𝕄) ⊢ dat.arrays (dat.arrAt · 0) := by
  have hAr : dat.arrays (dat.arrAt · 0)
      = bigSep Finset.univ fun w : Fin 5 => (((c : Thread nD τ).loc (Pipeline.arrRef spec0 w)) ↦{dat.share w} V (Pipeline.arrRef spec0 w) : sProp 𝕄) := by
    unfold Pipeline.Dat.arrays
    exact bigSep_congr fun w _ => by
      rw [(arr_whole0 w).set_eq_univ]
      show (_ ↦{dat.share w} dat.A w : sProp 𝕄) = _
      rw [hA w]
  rw [hAr, bigSep_W0]
  unfold Pipeline.arrBufs
  rw [bigSep_eq_bigSepL_of_eq [main_arg0, main_arg1, main_arg2, main_v0] (by decide) (by decide)]
  have hs0 : dat.share 0 = fullShare.left := by unfold Pipeline.Dat.share; rw [← hq0]; rfl
  have hs1 : dat.share 1 = fullShare.right := by unfold Pipeline.Dat.share; rw [← hq1]; rfl
  have hs2 : dat.share 2 = fullShare := by unfold Pipeline.Dat.share; rw [← hq2]; rfl
  have hs3 : dat.share 3 = fullShare := by unfold Pipeline.Dat.share; rw [← hq3]; rfl
  have hs4 : dat.share 4 = fullShare := rfl
  rw [hs0, hs1, hs2, hs3, hs4]
  show iprop((((c : Thread nD τ).loc main_arg0 ↦{fullShare} V main_arg0 : sProp 𝕄)) ∗ ((c : Thread nD τ).loc main_arg1 ↦{fullShare} V main_arg1)
      ∗ ((c : Thread nD τ).loc main_arg2 ↦{fullShare} V main_arg2) ∗ ((c : Thread nD τ).loc main_v0 ↦{fullShare} V main_v0))
    ⊢ iprop((((c : Thread nD τ).loc main_arg0 ↦{fullShare.left} V main_arg0 : sProp 𝕄)) ∗ ((c : Thread nD τ).loc main_arg0 ↦{fullShare.right} V main_arg0)
      ∗ ((c : Thread nD τ).loc main_arg1 ↦{fullShare} V main_arg1) ∗ ((c : Thread nD τ).loc main_arg2 ↦{fullShare} V main_arg2)
      ∗ ((c : Thread nD τ).loc main_v0 ↦{fullShare} V main_v0))
  iintro ⟨H0, H1, H2, H3⟩
  -- the shared array's full share, halved: one half for each of its two windows
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  iexact H3

end Cert.KernelIdeal.Hand
-- ==== Proof.KIxFrame.lean ====
/-
  The frame of the gating kernel's region: what the output block and the scratch hold after each grid point, the
  proof data of the pipeline, the body obligation at a generic point, and the run. The scratch is written at the
  first point (the transposed weight) and carried unchanged through the later ones, so the region invariant before
  a later point names its contents. The two input streams are two windows on ONE array: each holds a half share of
  it, which is how the launch deals the array between them.
-/
import proofs.«145414_g46497315947021_cont_8to1c4_729_11_alg».proof.Proof.KIxRunB
import proofs.«145414_g46497315947021_cont_8to1c4_729_11_alg».proof.Proof.LibSharedFrame
import proofs.«145414_g46497315947021_cont_8to1c4_729_11_alg».proof.Proof.KIxSplit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores of each case leave -/

/-- At the first point the two stores into the output block tile it, so they cover it. -/
theorem cover0_A_4 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : cond0_0 i)
    (x0 : Vec F S1024x2048 .f32) (x1 : Vec F S1024x2048 .f32) (x2 : Vec F S64x2048 .f32) (x3 : Vec F S64 .f32) (y : S2048x64.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S1024x64.size (by sl_kernel_rfl) y

/-- What the first point leaves in the output block: its pieces read back. -/
def out0_A_4 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : cond0_0 i)
    (x0 : Vec F S1024x2048 .f32) (x1 : Vec F S1024x2048 .f32) (x2 : Vec F S64x2048 .f32) (x3 : Vec F S64 .f32) : Vec F S2048x64 .f32 :=
  VO0_4.read (Elt F) (VO0_4.writes (Elt F) VO0_4.junk (kernelRun0_A c i arg1 harg1 arg2 harg2 arg3 harg3 arg4 harg4 arg5 harg5 arg6 harg6 hc0 x0 x1 x2 x3).1)

/-- At the first point the one store into the scratch covers it. -/
theorem scover0_A_0 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : cond0_0 i)
    (x0 : Vec F S1024x2048 .f32) (x1 : Vec F S1024x2048 .f32) (x2 : Vec F S64x2048 .f32) (x3 : Vec F S64 .f32) (y : S2048x64.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S2048x64.size (by sl_kernel_rfl) y

/-- What the first point leaves in the scratch: its piece read back. -/
def sout0_A_0 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : cond0_0 i)
    (x0 : Vec F S1024x2048 .f32) (x1 : Vec F S1024x2048 .f32) (x2 : Vec F S64x2048 .f32) (x3 : Vec F S64 .f32) : Vec F S2048x64 .bf16 :=
  VS0_0.read (Elt F) (VS0_0.writes (Elt F) VS0_0.junk (kernelRun0_A c i arg1 harg1 arg2 harg2 arg3 harg3 arg4 harg4 arg5 harg5 arg6 harg6 hc0 x0 x1 x2 x3).2.1)

/-- At a later point the two stores into the output block tile it, so they cover it. -/
theorem cover0_B_4 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : ¬cond0_0 i)
    (x0 : Vec F S1024x2048 .f32) (x1 : Vec F S1024x2048 .f32) (x2 : Vec F S64x2048 .f32) (x3 : Vec F S64 .f32) (xs0 : Vec F S2048x64 .bf16) (y : S2048x64.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S1024x64.size (by sl_kernel_rfl) y

/-- What a later point leaves in the output block: its pieces read back. -/
def out0_B_4 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : ¬cond0_0 i)
    (x0 : Vec F S1024x2048 .f32) (x1 : Vec F S1024x2048 .f32) (x2 : Vec F S64x2048 .f32) (x3 : Vec F S64 .f32) (xs0 : Vec F S2048x64 .bf16) : Vec F S2048x64 .f32 :=
  VO0_4.read (Elt F) (VO0_4.writes (Elt F) VO0_4.junk (kernelRun0_B c i arg1 harg1 arg2 harg2 arg3 harg3 arg4 harg4 arg5 harg5 arg6 harg6 hc0 x0 x1 x2 x3 xs0).1)

/-! ## What the output block and the scratch hold after each point -/

/-- After the body at position `n`: the output block's staging buffer and the scratch. The first point runs the
    branch-taken case on the point's input blocks; a later point runs the other case on its input blocks and on the
    scratch as the point before left it, and leaves the scratch as it found it. -/
def outsAt0 (c : Dev nD) : (n : ℕ) → n < cfg0.N → Vec F S2048x64 .f32 × Vec F S2048x64 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩))
  | n + 1, hn => (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
      (outsAt0 c n (Nat.lt_of_succ_lt hn)).2)

/-- `outsAt0` at the first point. -/
theorem outsAt0_A (c : Dev nD) (t : Fin cfg0.N) (h0 : t.val = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t),
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact absurd h0 (Nat.succ_ne_zero n)

/-- `outsAt0` at a later point, over what the point before left. -/
theorem outsAt0_B (c : Dev nD) (t : Fin cfg0.N) (h0 : ¬t.val = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact absurd rfl h0
  | succ n => exact rfl

/-- The region invariant before position `n`: before the first point the scratch holds anything; afterwards it holds
    what the point before left in it; the generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at `outsAt0`; the invariant `PhiS`; nothing owed; the array the
    two input streams share dealt in halves, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d
theorem before0_3 (c : Dev nD) (t : Fin cfg0.N) (d) : (dats m 0 c).before 3 t d = iblk m c 3 t :=
  before3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the closed form of the branch says which case the
    point is in; the invariant hands the body the scratch (at anything at the first point, at what the point before
    left otherwise) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0 0 t], after0_0]
  rw [show (dats m 0 c).leavesExact 1 t = owns (c : Thread nD τ) (ms0_1 t) fullShare ((dats m 0 c).after 1 t) from by
    unfold Dat.leavesExact; rw [liveAt0 1 t], after0_1]
  rw [show (dats m 0 c).leavesExact 2 t = owns (c : Thread nD τ) (ms0_2 t) fullShare ((dats m 0 c).after 2 t) from by
    unfold Dat.leavesExact; rw [liveAt0 2 t], after0_2]
  rw [show (dats m 0 c).leavesExact 3 t = owns (c : Thread nD τ) (ms0_3 t) fullShare ((dats m 0 c).after 3 t) from by
    unfold Dat.leavesExact; rw [liveAt0 3 t], after0_3]
  rw [show (dats m 0 c).leavesExact 4 t = owns (c : Thread nD τ) (ms0_4 t) fullShare ((dats m 0 c).after 4 t) from by
    unfold Dat.leavesExact; rw [liveAt0 4 t], after0_4]
  by_cases hz : t.val = 0
  · rw [outsAt0_A m c t hz]
    unfold out0_A_4 sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _)
  · rw [outsAt0_B m c t hz]
    unfold out0_B_4; (try dsimp only)
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => hz ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- From any memory with zero counters every weakly fair execution of the program terminates, and every final state
    has every array of the pipeline at what the library computes from the proof data. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0 defs₀ Variants.none m ρ main
    (fun c => (body_obligation m c).loose) (fun _ _ => rfl) (V m) (hmain m Variants.none)
    (fun c => arrays_split_shared c (dats m 0 c) (V m c) (A_eq m c) rfl rfl rfl rfl) (hin m) (hout m)

/-- The run with the result array named and the three argument arrays unchanged. -/
theorem run_out : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 4,
      ((h c).1 0).trans (((dats m 0 c).arrAt_in 0 rfl _).trans (A_eq m c 0)),
      ((h c).1 2).trans (((dats m 0 c).arrAt_in 2 rfl _).trans (A_eq m c 2)),
      ((h c).1 3).trans (((dats m 0 c).arrAt_in 3 rfl _).trans (A_eq m c 3))⟩) (run_main m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_out m ρ)

end Cert.KernelIdeal.Hand

end
-- ==== Proof.GateOuts.lean ====
/-
  What the kernel's stores leave, as values. At every grid point the output block ends as two stacked halves: rows
  0…1023 the payload of the first input stream, rows 1024…2047 that of the second, both computed against the
  scratch (the transposed weight) and the bias. The scratch is the transposed weight from the first point on. So
  what the output block and the scratch hold after point n has a closed form, by induction on the point.
-/
import proofs.«145414_g46497315947021_cont_8to1c4_729_11_alg».proof.Proof.KIxFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The output block as the body's two stores leave it: the second stream's payload over rows 1024…2047, the first
    stream's over rows 0…1023, each against the scratch contents `v3` and the bias `bv`. -/
def blockOut (v3 : Vec F S2048x64 .bf16) (bv : Vec F S64 .f32) (xa xb : Vec F S1024x2048 .f32) : Vec F S2048x64 .f32 :=
  View.canon [(⟨Rect.unit (s := S2048x64) ![1024, 0] S1024x64.size Facts₀.inb_S2048x64_S1024x64_1024_0, k0_pay3 v3 bv xb⟩ : View.Piece (Elt F) S2048x64 .f32),
              ⟨Rect.unit (s := S2048x64) ![0, 0] S1024x64.size Facts₀.inb_S2048x64_S1024x64_0_0, k0_pay2 v3 bv xa⟩]

/-- A later point leaves the two halves computed against the scratch as it found it. -/
theorem out_B (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : ¬cond0_0 i)
    (x0 : Vec F S1024x2048 .f32) (x1 : Vec F S1024x2048 .f32) (x2 : Vec F S64x2048 .f32) (x3 : Vec F S64 .f32) (xs0 : Vec F S2048x64 .bf16) :
    out0_B_4 c i arg1 harg1 arg2 harg2 arg3 harg3 arg4 harg4 arg5 harg5 arg6 harg6 hc0 x0 x1 x2 x3 xs0 = blockOut xs0 x3 x0 x1 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  simp only [View.readAt_eq_ld, harg1.read_unread, harg2.read_unread, harg4.read_unread, harg6.read_unread,
    View.ld_unit_zero (S := S1024x2048) hz2, View.ld_unit_zero (S := S2048x64) hz2, View.ld_unit_zero (S := S64) hz1]
  rfl

/-- The first point leaves the two halves computed against the transposed weight it has just stored; -/
theorem out_A (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : cond0_0 i)
    (x0 : Vec F S1024x2048 .f32) (x1 : Vec F S1024x2048 .f32) (x2 : Vec F S64x2048 .f32) (x3 : Vec F S64 .f32) :
    out0_A_4 c i arg1 harg1 arg2 harg2 arg3 harg3 arg4 harg4 arg5 harg5 arg6 harg6 hc0 x0 x1 x2 x3 = blockOut (k0_pay1 x2) x3 x0 x1 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  simp only [View.readCov_unit_zero (S := S2048x64) _ hz2, View.readAt_eq_ld, harg1.read_unread, harg2.read_unread, harg3.read_unread, harg4.read_unread,
    View.ld_unit_zero (S := S1024x2048) hz2, View.ld_unit_zero (S := S64x2048) hz2, View.ld_unit_zero (S := S64) hz1]
  rfl

/-- and the scratch holding that transposed weight. -/
theorem sout_A (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S64 .f32) (harg4 : arg4.IsWhole) (arg5 : Memref sig .tc .vmem S2048x64 .f32) (harg5 : arg5.IsWhole) (arg6 : Memref sig .tc .vmem S2048x64 .bf16) (harg6 : arg6.IsWhole) (hc0 : cond0_0 i)
    (x0 : Vec F S1024x2048 .f32) (x1 : Vec F S1024x2048 .f32) (x2 : Vec F S64x2048 .f32) (x3 : Vec F S64 .f32) :
    sout0_A_0 c i arg1 harg1 arg2 harg2 arg3 harg3 arg4 harg4 arg5 harg5 arg6 harg6 hc0 x0 x1 x2 x3 = k0_pay1 x2 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero (S := S2048x64) hz2]
  simp only [View.readAt_eq_ld, harg3.read_unread, View.ld_unit_zero (S := S64x2048) hz2]

/-- After point `n`: the output block is the two halves of the point's two input blocks against the transposed
    weight block of the FIRST point and the point's bias block; the scratch is that transposed weight. -/
theorem outsAt_eq (c : Dev nD) : ∀ (n : ℕ) (h : n < cfg0.N),
    outsAt0 m c n h = (blockOut (k0_pay1 (iblk m c 2 ⟨0, Nat.lt_of_le_of_lt (Nat.zero_le n) h⟩)) (iblk m c 3 ⟨n, h⟩) (iblk m c 0 ⟨n, h⟩) (iblk m c 1 ⟨n, h⟩),
      k0_pay1 (iblk m c 2 ⟨0, Nat.lt_of_le_of_lt (Nat.zero_le n) h⟩))
  | 0, h => by
    rw [outsAt0_A m c ⟨0, h⟩ rfl, out_A, sout_A]
  | n + 1, h => by
    rw [outsAt0_B m c ⟨n + 1, h⟩ (Nat.succ_ne_zero n), out_B]
    show (blockOut (outsAt0 m c n _).2 _ _ _, (outsAt0 m c n _).2) = _
    rw [outsAt_eq c n]

end Cert.KernelIdeal.Hand

end
-- ==== Proof.GateSpec.lean ====
import Idealize.ShloMosaic.PureOps.Ideal
import Idealize.ShloMosaic.PureOps.Ideal.Laws
import Idealize.ShloMosaic.Lib.ValueIdx

/-! # One row of the gate

A row `xr` of 2048 activations, a 64 × 2048 weight matrix `W` and a bias `b` of 64 entries give 64 logits
`logit e = (∑ k, xr k * W e k) + b e`; the gate is their softmax, taken the stable way: subtract the row's
maximum, exponentiate, divide by the sum of the exponentials. Everything is an extended real and every
operation exact. The maximum is the fold of `max` over the 64 logits from the value of the word
`0xFF800000` (f32's `-∞`), kept as that word's value: it is the same word wherever it occurs, so it is
never evaluated. -/

noncomputable section

open scoped BigOperators

namespace Cert.GateSpec

open Idealize.ShloMosaic

/-- The logit of expert `e`: the row against row `e` of the weights, plus the bias. -/
def logit (xr : Fin 2048 → EReal) (W : Fin 64 → Fin 2048 → EReal) (b : Fin 64 → EReal) (e : Fin 64) : EReal :=
  (∑ k : Fin 2048, xr k * W e k) + b e

/-- The row's maximum logit, folded from the value of f32's `-∞` word. -/
def rowMax (xr : Fin 2048 → EReal) (W : Fin 64 → Fin 2048 → EReal) (b : Fin 64 → EReal) : EReal :=
  (Finset.univ : Finset (Fin 64)).fold max (Ideal.ofBits .f32 0xFF800000#32) (fun e => logit xr W b e)

/-- The exponential of a logit's distance below the maximum. -/
def expRow (xr : Fin 2048 → EReal) (W : Fin 64 → Fin 2048 → EReal) (b : Fin 64 → EReal) (e : Fin 64) : EReal :=
  Ideal.exp (logit xr W b e - rowMax xr W b)

/-- The gate's value for expert `e`: its exponential over the sum of the 64 exponentials. -/
def rowSoftmax (xr : Fin 2048 → EReal) (W : Fin 64 → Fin 2048 → EReal) (b : Fin 64 → EReal) (e : Fin 64) : EReal :=
  Ideal.div (expRow xr W b e) (∑ e' : Fin 64, expRow xr W b e')

/-- A fold of `max` is at least its starting value, so taking `max` with that value once more changes nothing. -/
theorem max_fold_max_self {ι : Type*} (s : Finset ι) (c : EReal) (f : ι → EReal) :
    max c (s.fold max c f) = s.fold max c f :=
  max_eq_right ((Finset.le_fold_max c).mpr (Or.inl le_rfl))

/-- A sum started from the value of the zero word is the sum. -/
theorem zero_word_add (s : EReal) : Ideal.ofBits .f32 0x00000000#32 + s = s := by
  rw [Ideal.ofBits_zero_f32, zero_add]

end Cert.GateSpec

end
-- ==== Proof.LibColumnCasts.lean ====
import Idealize.ShloMosaic.Lib.Pipeline.Value
import Idealize.ShloMosaic.Lib.ValueIdx

/-! # Column casts read at an index

A vector of length `a` seen as an `a × 1` column (what a sum along the last axis that keeps the axis produces),
and an `a × 1` column seen as a vector again. Both casts keep the row-major position: entry `i` of the vector is
entry `(i, 0)` of the column. Stated for any extent `a` and any element type, over indices written with
`ix1` / `ix2`, so that they apply to a printed cast by unification. -/

namespace ColumnCasts

open Idealize.ShloMosaic Idealize.ShloMosaic.ValueIdx

variable {α : Type}

/-- A length-`a` vector cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to a length-`a` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end ColumnCasts
-- ==== Proof.LibColumnBroadcast.lean ====
import Idealize.ShloMosaic.Lib.Pipeline.Value
import Idealize.ShloMosaic.Lib.ValueIdx

/-! # A column broadcast along the last axis, read at an index

An `a × 1` column broadcast to `a × b` (what a row statistic kept as a column becomes when it is combined with the
whole row again) repeats entry `(i, 0)` along row `i`. Stated for any extents and any element type, over indices
written with `ix2`, so that it applies to a printed broadcast by unification. -/

namespace ColumnBroadcast

open Idealize.ShloMosaic Idealize.ShloMosaic.ValueIdx

variable {α : Type}

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end ColumnBroadcast
-- ==== Proof.PayGate.lean ====
import proofs.«145414_g46497315947021_cont_8to1c4_729_11_alg».proof.Proof.Gen.KernelIdeal.Skeleton
import proofs.«145414_g46497315947021_cont_8to1c4_729_11_alg».proof.Proof.GateSpec
import proofs.«145414_g46497315947021_cont_8to1c4_729_11_alg».proof.Proof.LibColumnCasts
import proofs.«145414_g46497315947021_cont_8to1c4_729_11_alg».proof.Proof.LibColumnBroadcast
import Idealize.ShloMosaic.Lib.ValueLayout
import Idealize.ShloMosaic.PureOps.Ideal.Laws

/-! # The kernel's block of gate values, entry by entry

The body computes, for a block of 1024 rows, the logits `x · Wᵀ + b` on the matrix unit (the weights
transposed once and kept), each row's maximum, the exponentials of the distances below it, their row sums and
the quotients. At the exact values every step is the textbook one, so entry `(p, e)` of the block is the
gate's value `rowSoftmax` of row `p`. One lemma per step that is not entry-by-entry, each over variables,
then the chain. -/

noncomputable section

open scoped BigOperators

namespace Cert.GatePay

open Idealize.ShloMosaic Idealize.ShloMosaic.ValueIdx Cert.KernelIdeal Cert.KernelIdeal.Gen

/-- An exponential of a block, read at an entry. -/
theorem exp_apply {s : Shape} {φ : FTy} (a : FVec Ideal s φ) (i : s.Idx) : exp a i = Ideal.exp (a i) := rfl

/-- The kept weights: entry `(k, e)` of the transposed matrix is entry `(e, k)` of the weights. -/
theorem pay1_apply (Wv : Vec Ideal S64x2048 .f32) (k : Fin 2048) (e : Fin 64) :
    k0_pay1 (F := Ideal) Wv (ix2 k e) = Wv (ix2 e k) := by
  unfold k0_pay1
  simp only [shapeCast_self]
  exact transpose_ix2_apply Wv _ k e

/-- The left operand's index at output `j` and contraction index `q`: row `j 0` … -/
theorem lhs_0 (j : S1024x64.Idx) (q : dot_S1024x2048_S2048x64_S1024x64_1_0_0_1_n_n.contr.Idx) :
    (dot_S1024x2048_S2048x64_S1024x64_1_0_0_1_n_n.lhsIdx j q 0).val = (j 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
/-- … column the contracted position; -/
theorem lhs_1 (j : S1024x64.Idx) (q : dot_S1024x2048_S2048x64_S1024x64_1_0_0_1_n_n.contr.Idx) :
    (dot_S1024x2048_S2048x64_S1024x64_1_0_0_1_n_n.lhsIdx j q 1).val = (q ⟨0, by decide⟩).val :=
  dot_S1024x2048_S2048x64_S1024x64_1_0_0_1_n_n.lhsIdx_val_of_single rfl j q
/-- the right operand's: row the contracted position … -/
theorem rhs_0 (j : S1024x64.Idx) (q : dot_S1024x2048_S2048x64_S1024x64_1_0_0_1_n_n.contr.Idx) :
    (dot_S1024x2048_S2048x64_S1024x64_1_0_0_1_n_n.rhsIdx j q 0).val = (q ⟨0, by decide⟩).val :=
  dot_S1024x2048_S2048x64_S1024x64_1_0_0_1_n_n.rhsIdx_val_of_single rfl j q
/-- … column `j 1`. -/
theorem rhs_1 (j : S1024x64.Idx) (q : dot_S1024x2048_S2048x64_S1024x64_1_0_0_1_n_n.contr.Idx) :
    (dot_S1024x2048_S2048x64_S1024x64_1_0_0_1_n_n.rhsIdx j q 1).val = (j 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- The matrix product into a zero block: entry `(p, e)` is the sum over the 2048 contracted positions. -/
theorem matmul_at (l : FVec Ideal S1024x2048 .bf16) (w : FVec Ideal S2048x64 .bf16) (p : Fin 1024) (e : Fin 64) :
    matmul (F := Ideal) dot_S1024x2048_S2048x64_S1024x64_1_0_0_1_n_n none l w (constant (F := Ideal) S1024x64 .f32 0x00000000#32) (ix2 p e)
      = ∑ k : Fin 2048, l (ix2 p k) * w (ix2 k e) := by
  simp only [matmul]
  rw [Ideal.matmul_constant_zero_apply,
    ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 p e)
      ((contrEquiv1 dot_S1024x2048_S2048x64_S1024x64_1_0_0_1_n_n 2048 rfl rfl).symm k) = ix2 p k :=
    funext fun a => Fin.ext (by
      match a with
      | ⟨0, _⟩ => exact lhs_0 _ _
      | ⟨1, _⟩ => exact (lhs_1 _ _).trans hk)
  have er : dot_S1024x2048_S2048x64_S1024x64_1_0_0_1_n_n.rhsIdx (ix2 p e)
      ((contrEquiv1 dot_S1024x2048_S2048x64_S1024x64_1_0_0_1_n_n 2048 rfl rfl).symm k) = ix2 k e :=
    funext fun a => Fin.ext (by
      match a with
      | ⟨0, _⟩ => exact (rhs_0 _ _).trans hk
      | ⟨1, _⟩ => exact rhs_1 _ _)
  rw [el, er]

/-- The bias as one row repeated down the block: entry `(p, e)` is `b e`. -/
theorem bias_at (bv : Vec Ideal S64 .f32) (p : Fin 1024) (e : Fin 64) :
    broadcastTo S1024x64 (shapeCast S1x64 bv shapeCasts_S64_S1x64) broadcasts_S1x64_S1024x64 (ix2 p e) = bv (ix1 e) :=
  (broadcastTo_1b_ab_apply _ _ p e).trans (shapeCast_a_1a_apply bv _ 0 e)

/-- A row statistic kept as a column and repeated along the row: entry `(p, e)` is the statistic of row `p`. -/
theorem col_at (v : FVec Ideal S1024 .f32) (p : Fin 1024) (e : Fin 64) :
    broadcastTo S1024x64 (shapeCast S1024x1 v shapeCasts_S1024_S1024x1) broadcasts_S1024x1_S1024x64 (ix2 p e) = v (ix1 p) :=
  (ColumnBroadcast.broadcastTo_a1_ab_apply _ _ p e).trans (ColumnCasts.shapeCast_a_a1_apply v _ p 0)

/-- The index the one-axis reductions insert a column coordinate into. -/
theorem lift_ix (p : Fin 1024) (e : Fin 64) : reduces_S1024x64_S1024.lift (ix1 p) e = ix2 p e :=
  funext fun a => Fin.ext (by match a with | ⟨0, _⟩ => rfl | ⟨1, _⟩ => rfl)

/-- A row's maximum: the fold of `max` over the row from the value of the starting word. -/
theorem rowmax_at (src : FVec Ideal S1024x64 .f32) (hφ : FKind.Formats .f32)
    (hacc : (0xFF800000#32 : BitVec 32) = 0xFF800000#32) (p : Fin 1024) :
    multiReduction (F := Ideal) .maximumf [1] S1024 src 0xFF800000#32 reduces_S1024x64_S1024 hφ hacc (ix1 p)
      = (Finset.univ : Finset (Fin 64)).fold max (Ideal.ofBits .f32 0xFF800000#32) (fun e => src (ix2 p e)) := by
  refine (Ideal.multiReduction_maximumf_single src 0xFF800000#32 reduces_S1024x64_S1024 hφ hacc (ix1 p)).trans ?_
  refine congrArg (fun f => (Finset.univ : Finset (Fin 64)).fold max (Ideal.ofBits .f32 0xFF800000#32) f) ?_
  exact funext fun e => congrArg src (lift_ix p e)

/-- A row's sum. -/
theorem rowsum_at (src : FVec Ideal S1024x64 .f32) (hφ : FKind.Formats .f32)
    (hacc : (0x00000000#32 : BitVec 32) = 0x00000000#32) (p : Fin 1024) :
    multiReduction (F := Ideal) .add [1] S1024 src 0x00000000#32 reduces_S1024x64_S1024 hφ hacc (ix1 p)
      = ∑ e : Fin 64, src (ix2 p e) := by
  refine (Ideal.multiReduction_add_single src 0x00000000#32 reduces_S1024x64_S1024 hφ hacc (ix1 p)).trans ?_
  exact Finset.sum_congr rfl fun e _ => congrArg src (lift_ix p e)

/-- The stable softmax of a block of logits `L`, as the body spells it (maximum and sum kept as columns and repeated
    along the rows), at an entry: the exponential of the entry's distance below its row's maximum, over the row's sum
    of those. -/
theorem softmax_at (L : FVec Ideal S1024x64 .f32) (hφ : FKind.Formats .f32)
    (hm : (0xFF800000#32 : BitVec 32) = 0xFF800000#32) (hs : (0x00000000#32 : BitVec 32) = 0x00000000#32)
    (p : Fin 1024) (e : Fin 64) :
    divf
        (exp (subf L (broadcastTo S1024x64 (shapeCast S1024x1
          (multiReduction (F := Ideal) .maximumf [1] S1024 L 0xFF800000#32 reduces_S1024x64_S1024 hφ hm)
          shapeCasts_S1024_S1024x1) broadcasts_S1024x1_S1024x64)))
        (broadcastTo S1024x64 (shapeCast S1024x1
          (multiReduction (F := Ideal) .add [1] S1024
            (exp (subf L (broadcastTo S1024x64 (shapeCast S1024x1
              (multiReduction (F := Ideal) .maximumf [1] S1024 L 0xFF800000#32 reduces_S1024x64_S1024 hφ hm)
              shapeCasts_S1024_S1024x1) broadcasts_S1024x1_S1024x64)))
            0x00000000#32 reduces_S1024x64_S1024 hφ hs)
          shapeCasts_S1024_S1024x1) broadcasts_S1024x1_S1024x64)
        (ix2 p e)
      = Ideal.div
          (Ideal.exp (L (ix2 p e)
            - (Finset.univ : Finset (Fin 64)).fold max (Ideal.ofBits .f32 0xFF800000#32) (fun e' => L (ix2 p e'))))
          (∑ e'' : Fin 64, Ideal.exp (L (ix2 p e'')
            - (Finset.univ : Finset (Fin 64)).fold max (Ideal.ofBits .f32 0xFF800000#32) (fun e' => L (ix2 p e')))) := by
  have hd : ∀ e'' : Fin 64,
      exp (subf L (broadcastTo S1024x64 (shapeCast S1024x1
          (multiReduction (F := Ideal) .maximumf [1] S1024 L 0xFF800000#32 reduces_S1024x64_S1024 hφ hm)
          shapeCasts_S1024_S1024x1) broadcasts_S1024x1_S1024x64)) (ix2 p e'')
        = Ideal.exp (L (ix2 p e'')
            - (Finset.univ : Finset (Fin 64)).fold max (Ideal.ofBits .f32 0xFF800000#32) (fun e' => L (ix2 p e'))) :=
    fun e'' => by rw [exp_apply, subf_apply, col_at, rowmax_at]
  rw [divf_apply, hd, col_at, rowsum_at]
  exact congrArg (Ideal.div _) (Finset.sum_congr rfl fun e'' _ => hd e'')

/-- The block of logits at an entry: the row against the expert's weights, plus its bias. -/
theorem logits_at (Wv : Vec Ideal S64x2048 .f32) (bv : Vec Ideal S64 .f32) (xb : Vec Ideal S1024x2048 .f32)
    (p : Fin 1024) (e : Fin 64) :
    addf (matmul (F := Ideal) dot_S1024x2048_S2048x64_S1024x64_1_0_0_1_n_n none (truncf .bf16 xb bitsLt_bf16_f32)
          (k0_pay1 (F := Ideal) Wv) (constant (F := Ideal) S1024x64 .f32 0x00000000#32))
        (broadcastTo S1024x64 (shapeCast S1x64 bv shapeCasts_S64_S1x64) broadcasts_S1x64_S1024x64) (ix2 p e)
      = Cert.GateSpec.logit (fun k => xb (ix2 p k)) (fun e' k => Wv (ix2 e' k)) (fun e' => bv (ix1 e')) e := by
  rw [addf_apply, matmul_at, bias_at]
  unfold Cert.GateSpec.logit
  exact congrArg (· + bv (ix1 e)) (Finset.sum_congr rfl fun k _ => by rw [truncf_apply, pay1_apply])

/-- THE BLOCK AT AN ENTRY: row `p`'s gate value for expert `e`. -/
theorem pay2_apply (Wv : Vec Ideal S64x2048 .f32) (bv : Vec Ideal S64 .f32) (xb : Vec Ideal S1024x2048 .f32)
    (p : Fin 1024) (e : Fin 64) :
    Cert.KernelIdeal.Gen.k0_pay2 (F := Ideal) (Cert.KernelIdeal.Gen.k0_pay1 (F := Ideal) Wv) bv xb (ix2 p e)
      = Cert.GateSpec.rowSoftmax (fun k => xb (ix2 p k)) (fun e' k => Wv (ix2 e' k)) (fun e' => bv (ix1 e')) e := by
  unfold k0_pay2
  refine (softmax_at _ _ _ _ p e).trans ?_
  unfold Cert.GateSpec.rowSoftmax Cert.GateSpec.expRow Cert.GateSpec.rowMax
  simp only [logits_at]

/-- The second stream's block is the same text. -/
theorem pay3_eq_pay2 (v3 : Vec Ideal S2048x64 .bf16) (v4 : Vec Ideal S64 .f32) (v21 : Vec Ideal S1024x2048 .f32) :
    Cert.KernelIdeal.Gen.k0_pay3 (F := Ideal) v3 v4 v21 = Cert.KernelIdeal.Gen.k0_pay2 (F := Ideal) v3 v4 v21 := rfl

end Cert.GatePay

end
-- ==== Proof.GateValue.lean ====
/-
  The kernel's result array, over the extended reals. Point t of the region writes back rows 2048·t … 2048·t + 2047
  of the result; its two halves are the payloads of the two input streams, which hold rows 2048·t + p and
  2048·t + 1024 + p of x; each payload at (p, e) is the gate of its row against the whole weight and bias. So every
  row r of the result is the gate of row r of x: the eight blocks tile the array, and the array ends at ONE function
  of the three argument arrays.
-/
import proofs.«145414_g46497315947021_cont_8to1c4_729_11_alg».proof.Proof.GateOuts
import proofs.«145414_g46497315947021_cont_8to1c4_729_11_alg».proof.Proof.PayGate
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.GateSpec

variable (m : (ℓ : Loc nD τ sig) → Buf (Elt Ideal) ℓ) (ρ : Dev nD → PrngReg)

/-- The result array as one function of the argument arrays: entry (r, e) is the gate of row r of `X` for expert e. -/
def gate (X : S16384x2048.Idx → Ideal .f32) (Wf : S64x2048.Idx → Ideal .f32) (bf : S64.Idx → Ideal .f32) : S16384x64.Idx → Ideal .f32 :=
  fun i => rowSoftmax (fun k => X (ix2 (⟨(i 0).val, idx2_lt0 i⟩ : Fin 16384) k)) (fun e k => Wf (ix2 e k)) (fun e => bf (ix1 e)) ⟨(i 1).val, idx2_lt1 i⟩

theorem gate_apply (X : S16384x2048.Idx → Ideal .f32) (Wf : S64x2048.Idx → Ideal .f32) (bf : S64.Idx → Ideal .f32) (r : Fin 16384) (e : Fin 64) :
    gate X Wf bf (ix2 r e) = rowSoftmax (fun k => X (ix2 r k)) (fun e' k => Wf (ix2 e' k)) (fun e' => bf (ix1 e')) e := rfl

theorem tlt (t : Fin cfg0.N) : t.val < 8 := lt_of_lt_of_eq t.isLt (show cfg0.N = 8 from N_0)

/-- The printed index maps in closed form, decided over the eight points: the two input streams read block rows 2t and
    2t + 1 of x, the weight and the bias their one block, the output block row t. -/
theorem idx_facts : ∀ t : Fin cfg0.N, win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- The first stream's block at point t holds rows 2048·t + p of x. -/
theorem iblk0_apply (c : Dev nD) (t : Fin cfg0.N) (p : Fin 1024) (k : Fin 2048) :
    (iblk m c 0 t : Vec Ideal S1024x2048 .f32) (ix2 p k)
      = m ((c : Thread nD τ).loc main_arg0) (ix2 (⟨2048 * t.val + p.val, by have := tlt t; omega⟩ : Fin 16384) k) := by
  obtain ⟨e0, e1, -⟩ := idx_facts t
  unfold iblk
  rw [View.read_apply]
  show V m c main_arg0 _ = _
  unfold V
  congr 1
  funext a; apply Fin.ext
  match a with
  | ⟨0, _⟩ => show win0_0.index t (0 : Fin 2) * 1024 + 1 * p.val = 2048 * t.val + p.val; rw [e0]; omega
  | ⟨1, _⟩ => show win0_0.index t (1 : Fin 2) * 2048 + 1 * k.val = k.val; rw [e1]; omega

/-- The second stream's block at point t holds rows 2048·t + 1024 + p of x. -/
theorem iblk1_apply (c : Dev nD) (t : Fin cfg0.N) (p : Fin 1024) (k : Fin 2048) :
    (iblk m c 1 t : Vec Ideal S1024x2048 .f32) (ix2 p k)
      = m ((c : Thread nD τ).loc main_arg0) (ix2 (⟨2048 * t.val + 1024 + p.val, by have := tlt t; omega⟩ : Fin 16384) k) := by
  obtain ⟨-, -, e0, e1, -⟩ := idx_facts t
  unfold iblk
  rw [View.read_apply]
  show V m c main_arg0 _ = _
  unfold V
  congr 1
  funext a; apply Fin.ext
  match a with
  | ⟨0, _⟩ => show win0_1.index t (0 : Fin 2) * 1024 + 1 * p.val = 2048 * t.val + 1024 + p.val; rw [e0]; omega
  | ⟨1, _⟩ => show win0_1.index t (1 : Fin 2) * 2048 + 1 * k.val = k.val; rw [e1]; omega

/-- The weight's block is the whole weight at every point. -/
theorem iblk2_apply (c : Dev nD) (t : Fin cfg0.N) (e : Fin 64) (k : Fin 2048) :
    (iblk m c 2 t : Vec Ideal S64x2048 .f32) (ix2 e k) = m ((c : Thread nD τ).loc main_arg1) (ix2 e k) := by
  obtain ⟨-, -, -, -, e0, e1, -⟩ := idx_facts t
  unfold iblk
  rw [View.read_apply]
  show V m c main_arg1 _ = _
  unfold V
  congr 1
  funext a; apply Fin.ext
  match a with
  | ⟨0, _⟩ => show win0_2.index t (0 : Fin 2) * 64 + 1 * e.val = e.val; rw [e0]; omega
  | ⟨1, _⟩ => show win0_2.index t (1 : Fin 2) * 2048 + 1 * k.val = k.val; rw [e1]; omega

/-- The bias's block is the whole bias at every point. -/
theorem iblk3_apply (c : Dev nD) (t : Fin cfg0.N) (e : Fin 64) :
    (iblk m c 3 t : Vec Ideal S64 .f32) (ix1 e) = m ((c : Thread nD τ).loc main_arg2) (ix1 e) := by
  obtain ⟨-, -, -, -, -, -, e0, -⟩ := idx_facts t
  unfold iblk
  rw [View.read_apply]
  show V m c main_arg2 _ = _
  unfold V
  congr 1
  funext a; apply Fin.ext
  match a with
  | ⟨0, _⟩ => show win0_3.index t (0 : Fin 1) * 64 + 1 * e.val = e.val; rw [e0]; omega

/-- Rows 2048·t + q of the result: the function the output block of point t is a block of. -/
def gateBlk (c : Dev nD) (t : Fin cfg0.N) : S2048x64.Idx → Elt Ideal .f32 := fun y =>
  rowSoftmax (fun k => m ((c : Thread nD τ).loc main_arg0) (ix2 (⟨2048 * t.val + (y 0).val, by have := tlt t; have := idx2_lt0 y; omega⟩ : Fin 16384) k))
    (fun e k => m ((c : Thread nD τ).loc main_arg1) (ix2 e k)) (fun e => m ((c : Thread nD τ).loc main_arg2) (ix1 e)) ⟨(y 1).val, idx2_lt1 y⟩

/-- The first stream's payload at (p, e), on the point's blocks, is the gate of row 2048·t + p. -/
theorem pay_lo (c : Dev nD) (t t' : Fin cfg0.N) (p : Fin 1024) (e : Fin 64) :
    k0_pay2 (F := Ideal) (k0_pay1 (iblk m c 2 t')) (iblk m c 3 t) (iblk m c 0 t) (ix2 p e)
      = rowSoftmax (fun k => m ((c : Thread nD τ).loc main_arg0) (ix2 (⟨2048 * t.val + p.val, by have := tlt t; omega⟩ : Fin 16384) k))
          (fun e k => m ((c : Thread nD τ).loc main_arg1) (ix2 e k)) (fun e => m ((c : Thread nD τ).loc main_arg2) (ix1 e)) e := by
  rw [Cert.GatePay.pay2_apply]
  simp only [iblk0_apply, iblk2_apply, iblk3_apply]

/-- The second stream's payload at (p, e) is the gate of row 2048·t + 1024 + p. -/
theorem pay_hi (c : Dev nD) (t t' : Fin cfg0.N) (p : Fin 1024) (e : Fin 64) :
    k0_pay3 (F := Ideal) (k0_pay1 (iblk m c 2 t')) (iblk m c 3 t) (iblk m c 1 t) (ix2 p e)
      = rowSoftmax (fun k => m ((c : Thread nD τ).loc main_arg0) (ix2 (⟨2048 * t.val + (1024 + p.val), by have := tlt t; omega⟩ : Fin 16384) k))
          (fun e k => m ((c : Thread nD τ).loc main_arg1) (ix2 e k)) (fun e => m ((c : Thread nD τ).loc main_arg2) (ix1 e)) e := by
  rw [Cert.GatePay.pay3_eq_pay2, Cert.GatePay.pay2_apply]
  simp only [iblk1_apply, iblk2_apply, iblk3_apply]
  congr 1; funext k; congr 2; exact Fin.ext (by show 2048 * t.val + 1024 + p.val = 2048 * t.val + (1024 + p.val); omega)

theorem gateBlk_apply (c : Dev nD) (t : Fin cfg0.N) (q : Fin 2048) (e : Fin 64) :
    gateBlk m c t (ix2 q e) = rowSoftmax (fun k => m ((c : Thread nD τ).loc main_arg0) (ix2 (⟨2048 * t.val + q.val, by have := tlt t; omega⟩ : Fin 16384) k))
      (fun e k => m ((c : Thread nD τ).loc main_arg1) (ix2 e k)) (fun e => m ((c : Thread nD τ).loc main_arg2) (ix1 e)) e := rfl

/-- The output block after point t, index by index: rows 2048·t + q of the gate. -/
theorem blockOut_apply (c : Dev nD) (t t' : Fin cfg0.N) (y : S2048x64.Idx) :
    blockOut (F := Ideal) (k0_pay1 (iblk m c 2 t')) (iblk m c 3 t) (iblk m c 0 t) (iblk m c 1 t) y = gateBlk m c t y := by
  unfold blockOut
  refine View.canon_apply_of_pieces (Val := Elt Ideal) (S := S2048x64) (e := .f32) (gateBlk m c t) _ ?_ y ?_
  · intro pc hpc x
    simp only [List.mem_cons, List.mem_nil_iff, or_false] at hpc
    rcases hpc with rfl | rfl
    · obtain ⟨p, e, rfl⟩ : ∃ (p : Fin 1024) (e : Fin 64), x = ix2 p e := ⟨x 0, x 1, eq_ix2 x⟩
      have hx : (Rect.unit (s := S2048x64) ![1024, 0] S1024x64.size Facts₀.inb_S2048x64_S1024x64_1024_0).emb (ix2 p e)
          = ix2 (⟨1024 + p.val, by omega⟩ : Fin 2048) e := funext fun a => Fin.ext (match a with
        | ⟨0, _⟩ => by show 1024 + 1 * p.val = 1024 + p.val; omega
        | ⟨1, _⟩ => by show 0 + 1 * e.val = e.val; omega)
      show k0_pay3 (F := Ideal) (k0_pay1 (iblk m c 2 t')) (iblk m c 3 t) (iblk m c 1 t) (ix2 p e) = gateBlk m c t ((Rect.unit (s := S2048x64) ![1024, 0] S1024x64.size Facts₀.inb_S2048x64_S1024x64_1024_0).emb (ix2 p e))
      rw [hx, gateBlk_apply]
      exact pay_hi m c t t' p e
    · obtain ⟨p, e, rfl⟩ : ∃ (p : Fin 1024) (e : Fin 64), x = ix2 p e := ⟨x 0, x 1, eq_ix2 x⟩
      have hx : (Rect.unit (s := S2048x64) ![0, 0] S1024x64.size Facts₀.inb_S2048x64_S1024x64_0_0).emb (ix2 p e)
          = ix2 (⟨p.val, by omega⟩ : Fin 2048) e := funext fun a => Fin.ext (match a with
        | ⟨0, _⟩ => by show 0 + 1 * p.val = p.val; omega
        | ⟨1, _⟩ => by show 0 + 1 * e.val = e.val; omega)
      show k0_pay2 (F := Ideal) (k0_pay1 (iblk m c 2 t')) (iblk m c 3 t) (iblk m c 0 t) (ix2 p e) = gateBlk m c t ((Rect.unit (s := S2048x64) ![0, 0] S1024x64.size Facts₀.inb_S2048x64_S1024x64_0_0).emb (ix2 p e))
      rw [hx, gateBlk_apply]
      exact pay_lo m c t t' p e
  · have h0 := idx2_lt0 y
    have h1 := idx2_lt1 y
    by_cases hy : (y 0).val < 1024
    · refine ⟨_, List.mem_cons_of_mem _ List.mem_cons_self, ?_⟩
      rw [Rect.mem_set_unit]
      intro a
      match a with
      | ⟨0, _⟩ => exact ⟨Nat.zero_le _, by show (y 0).val < 0 + 1024; omega⟩
      | ⟨1, _⟩ => exact ⟨Nat.zero_le _, by show (y 1).val < 0 + 64; omega⟩
    · refine ⟨_, List.mem_cons_self, ?_⟩
      rw [Rect.mem_set_unit]
      intro a
      match a with
      | ⟨0, _⟩ => exact ⟨by show 1024 ≤ (y 0).val; omega, by show (y 0).val < 1024 + 1024; omega⟩
      | ⟨1, _⟩ => exact ⟨Nat.zero_le _, by show (y 1).val < 0 + 64; omega⟩

/-- Block t of the gate, read through the output window at point t, is rows 2048·t + q of the gate. -/
theorem read_gate (c : Dev nD) (t : Fin cfg0.N) (y : S2048x64.Idx) :
    ((cfg0.win 4).blk t).view.read (Elt Ideal)
      (gate (m ((c : Thread nD τ).loc main_arg0)) (m ((c : Thread nD τ).loc main_arg1)) (m ((c : Thread nD τ).loc main_arg2))) y = gateBlk m c t y := by
  obtain ⟨-, -, -, -, -, -, -, e0, e1⟩ := idx_facts t
  have hidx : ((cfg0.win 4).blk t).view.emb y
      = ix2 (⟨2048 * t.val + (y 0).val, by have := tlt t; have := idx2_lt0 y; omega⟩ : Fin 16384) (⟨(y 1).val, idx2_lt1 y⟩ : Fin 64) :=
    funext fun a => Fin.ext (match a with
      | ⟨0, _⟩ => by show win0_4.index t (0 : Fin 2) * 2048 + 1 * (y 0).val = 2048 * t.val + (y 0).val; rw [e0]; omega
      | ⟨1, _⟩ => by show win0_4.index t (1 : Fin 2) * 64 + 1 * (y 1).val = (y 1).val; rw [e1]; omega)
  rw [View.read_apply, hidx, gate_apply]
  rfl

/-- What point t writes back is block t of the gate of the argument arrays. -/
theorem flushed_eq (c : Dev nD) (t : Fin cfg0.N) :
    (dats m 0 c).flushed 4 t = ((cfg0.win 4).blk t).view.read (Elt Ideal)
      (gate (m ((c : Thread nD τ).loc main_arg0)) (m ((c : Thread nD τ).loc main_arg1)) (m ((c : Thread nD τ).loc main_arg2))) := by
  obtain ⟨n, hn⟩ := t
  show (cfg0.win 4).cut (grid0.coords ⟨n, hn⟩) ((dats m 0 c).after 4 ⟨n, hn⟩) = _
  rw [after0_4, outsAt_eq]
  dsimp only
  funext y
  rw [read_gate]
  have hb := blockOut_apply m c ⟨n, hn⟩ ⟨0, Nat.lt_of_le_of_lt (Nat.zero_le n) hn⟩ ((cfg0.win 4).xinj (grid0.coords ⟨n, hn⟩) y)
  refine hb.trans ?_
  exact congrArg (gateBlk m c ⟨n, hn⟩) (funext fun a => Fin.ext rfl)

/-- An index of the result is in point t's block iff its row is among the block's 2048 rows. -/
theorem mem_blk (t : Fin cfg0.N) (i : S16384x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v0).slice (win0_4.rect t)).set ↔ _
  rw [View.set_slice_whole, Rect.mem_set_unit]
  exact Iff.rfl

/-- The result array after the run is the gate of the argument arrays: the eight blocks tile it. -/
theorem final (c : Dev nD) : (dats m 0 c).arrAt 4 cfg0.N
    = gate (m ((c : Thread nD τ).loc main_arg0)) (m ((c : Thread nD τ).loc main_arg1)) (m ((c : Thread nD τ).loc main_arg2)) :=
  (dats m 0 c).arrAt_eq_of_cover 4 _ (fun t _ => flushed_eq m c t) fun i => by
    have h0 : (i 0).val < 16384 := idx2_lt0 i
    have h1 : (i 1).val < 64 := idx2_lt1 i
    refine ⟨⟨(i 0).val / 2048, by rw [show cfg0.N = 8 from N_0]; omega⟩, flush0_4 _, ?_⟩
    rw [mem_blk]
    obtain ⟨-, -, -, -, -, -, -, e0, e1⟩ := idx_facts ⟨(i 0).val / 2048, by rw [show cfg0.N = 8 from N_0]; omega⟩
    intro a
    match a with
    | ⟨0, _⟩ => show win0_4.index _ (0 : Fin 2) * 2048 ≤ (i 0).val ∧ (i 0).val < win0_4.index _ (0 : Fin 2) * 2048 + 2048; rw [e0]; dsimp only; omega
    | ⟨1, _⟩ => show win0_4.index _ (1 : Fin 2) * 64 ≤ (i 1).val ∧ (i 1).val < win0_4.index _ (1 : Fin 2) * 64 + 64; rw [e1]; omega

/-- The run, read: the result array at the gate of the arguments, the arguments unchanged. -/
theorem run_gate : θ_run defs (onTc (τ := τ) (main (F := Ideal))) ⟨m, fun _ => 0, ρ⟩ (fun r => ∀ c : Dev nD,
      r.2.mem ((c.tc : Thread nD τ).loc main_v0)
        = gate (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (run_out m ρ)

end Cert.KernelIdeal.Hand

end
-- ==== Proof.RefGate.lean ====
import proofs.«145414_g46497315947021_cont_8to1c4_729_11_alg».proof.Proof.Gen.ReferenceIdeal.Read
import proofs.«145414_g46497315947021_cont_8to1c4_729_11_alg».proof.Proof.GateSpec
import Idealize.ShloMosaic.PureOps.Reduce
import Idealize.ShloMosaic.PureOps.Ideal.Laws

/-! # The reference's gate values, entry by entry

The reference computes the logits `x · Wᵀ + b` for all 16384 rows at once, each row's maximum (a reduction from
`-∞`, then once more the maximum with `-∞`), the exponentials of the distances below it, their row sums from zero
and the quotients. Read stage by stage at entry `(r, e)`, it is the gate's value `rowSoftmax` of row `r`: the second
maximum with the starting value changes nothing, and a sum started from zero is the sum. -/

noncomputable section

open scoped BigOperators

namespace Cert.GateRef

open Idealize.ShloMosaic Idealize.ShloMosaic.ValueIdx Cert.ReferenceIdeal Cert.ReferenceIdeal.Gen Cert.ReferenceIdeal.Read

variable (x0 : (⟨S16384x2048, .f32⟩ : BufTy).Contents (Elt Ideal)) (x1 : (⟨S64x2048, .f32⟩ : BufTy).Contents (Elt Ideal))
  (x2 : (⟨S64, .f32⟩ : BufTy).Contents (Elt Ideal))

/-! ## The composed index functions, on indices given by coordinates -/

theorem lidx_eq (r : Fin 16384) (e : Fin 64) (k : Fin 2048) : lidx_main_v1 (ix2 r e) k = ix2 r k :=
  funext fun a => Fin.ext (by match a with | ⟨0, _⟩ => rfl | ⟨1, _⟩ => rfl)
theorem ridx_eq (r : Fin 16384) (e : Fin 64) (k : Fin 2048) : idx_main_v0 (ridx_main_v1 (ix2 r e) k) = ix2 e k :=
  funext fun a => Fin.ext (by match a with | ⟨0, _⟩ => rfl | ⟨1, _⟩ => rfl)
theorem bidx_eq (r : Fin 16384) (e : Fin 64) : idx_main_v2 (idx_main_v3 (ix2 r e)) = ix1 e :=
  funext fun a => Fin.ext (by match a with | ⟨0, _⟩ => rfl)
theorem cidx9_eq (r : Fin 16384) (e : Fin 64) : idx_main_v8 (idx_main_v9 (ix2 r e)) = ix1 r :=
  funext fun a => Fin.ext (by match a with | ⟨0, _⟩ => rfl)
theorem cidx14_eq (r : Fin 16384) (e : Fin 64) : idx_main_v13 (idx_main_v14 (ix2 r e)) = ix1 r :=
  funext fun a => Fin.ext (by match a with | ⟨0, _⟩ => rfl)
theorem sidx_eq (r : Fin 16384) (k : Fin 64) : idx_main_v12 (ix1 r) k = ix2 r k :=
  funext fun a => Fin.ext (by match a with | ⟨0, _⟩ => rfl | ⟨1, _⟩ => rfl)

/-! ## The stages at an entry -/

/-- The logits. -/
theorem logit_ref (r : Fin 16384) (e : Fin 64) :
    val_main_v4 (F := Ideal) x0 x1 x2 (ix2 r e)
      = Cert.GateSpec.logit (fun k => x0 (ix2 r k)) (fun e' k => x1 (ix2 e' k)) (fun e' => x2 (ix1 e')) e := by
  rw [val_main_v4_apply, val_main_v1_apply, val_main_v3_apply, val_main_v2_apply, bidx_eq]
  unfold Cert.GateSpec.logit
  rw [Ideal.addf_def]
  exact congrArg (· + x2 (ix1 e)) (Finset.sum_congr rfl fun k _ => by rw [val_main_v0_apply, lidx_eq, ridx_eq])

/-- A reduction by `max` along the rows, from any starting value: the fold of `max` over the row. -/
theorem hostmax_at (L : (⟨S16384x64, .f32⟩ : BufTy).Contents (Elt Ideal)) (c : (⟨S_, .f32⟩ : BufTy).Contents (Elt Ideal))
    (r : Fin 16384) :
    Host.reduce (FloatOps.maximumf (F := Ideal) (φ := .f32)) L c reducesTo_S16384x64_S16384_d1 h_S_ (ix1 r)
      = (Finset.univ : Finset (Fin 64)).fold max (c (Shape.Idx.first h_S_)) (fun e' => L (ix2 r e')) := by
  have h : S16384x64.Reduces [1] S16384 := by decide
  refine (Host.reduce_eq_fold_single (FloatOps.maximumf (F := Ideal) (φ := .f32)) L c reducesTo_S16384x64_S16384_d1 h h_S_ (ix1 r)).trans ?_
  have hl : (L ∘ h.lift (ix1 r)) = fun e' : Fin 64 => L (ix2 r e') :=
    funext fun e' => congrArg L (funext fun a => Fin.ext (by match a with | ⟨0, _⟩ => rfl | ⟨1, _⟩ => rfl))
  rw [hl]
  rfl

/-- Each row's maximum. -/
theorem rowmax_ref (r : Fin 16384) :
    val_main_v7 (F := Ideal) x0 x1 x2 (ix1 r)
      = Cert.GateSpec.rowMax (fun k => x0 (ix2 r k)) (fun e' k => x1 (ix2 e' k)) (fun e' => x2 (ix1 e')) := by
  rw [val_main_v7_apply, val_main_v6_apply, val_main_cst_0_apply]
  unfold val_main_v5
  rw [hostmax_at, val_main_cst_apply, Ideal.maximumf_def, Ideal.ofBits_def, Cert.GateSpec.max_fold_max_self]
  unfold Cert.GateSpec.rowMax
  exact congrArg (fun f => (Finset.univ : Finset (Fin 64)).fold max (Ideal.ofBits .f32 0xFF800000#32) f)
    (funext fun e' => logit_ref x0 x1 x2 r e')

/-- The exponentials. -/
theorem exp_ref (r : Fin 16384) (e : Fin 64) :
    val_main_v11 (F := Ideal) x0 x1 x2 (ix2 r e)
      = Cert.GateSpec.expRow (fun k => x0 (ix2 r k)) (fun e' k => x1 (ix2 e' k)) (fun e' => x2 (ix1 e')) e := by
  rw [val_main_v11_apply, val_main_v10_apply, val_main_v9_apply, val_main_v8_apply, cidx9_eq, rowmax_ref, logit_ref,
    Ideal.hostUnary_exp_def, Ideal.subf_def]
  rfl

/-- The row sums, repeated along the rows. -/
theorem sum_ref (r : Fin 16384) (e : Fin 64) :
    val_main_v14 (F := Ideal) x0 x1 x2 (ix2 r e)
      = ∑ e' : Fin 64, Cert.GateSpec.expRow (fun k => x0 (ix2 r k)) (fun e' k => x1 (ix2 e' k)) (fun e' => x2 (ix1 e')) e' := by
  rw [val_main_v14_apply, val_main_v13_apply, cidx14_eq, val_main_v12_apply, val_main_cst_1_apply, Ideal.ofBits_def,
    Cert.GateSpec.zero_word_add]
  exact Finset.sum_congr rfl fun k _ => by rw [sidx_eq, exp_ref]

/-- THE REFERENCE AT AN ENTRY: row `r`'s gate value for expert `e`. -/
theorem ref_eq (x0 : (⟨S16384x2048, .f32⟩ : BufTy).Contents (Elt Ideal)) (x1 : (⟨S64x2048, .f32⟩ : BufTy).Contents (Elt Ideal))
    (x2 : (⟨S64, .f32⟩ : BufTy).Contents (Elt Ideal)) (r : Fin 16384) (e : Fin 64) :
    Cert.ReferenceIdeal.Read.val_main_v15 (F := Ideal) x0 x1 x2 (ix2 r e)
      = Cert.GateSpec.rowSoftmax (fun k => x0 (ix2 r k)) (fun e' k => x1 (ix2 e' k)) (fun e' => x2 (ix1 e')) e := by
  rw [val_main_v15_apply, exp_ref, sum_ref, Ideal.hostDivf_def]
  rfl

end Cert.GateRef

end
-- ==== Proof.lean ====
/-
  The gating kernel against its reference, over the extended reals.

  The kernel reads x twice, as two interleaved streams of 1024-row blocks (two windows on one array), keeps the
  transposed weight in a scratch buffer it fills at the first of its eight grid points, and writes, per point, 2048
  rows of softmax(x·Wᵀ + b) computed the stable way (subtract the row maximum, exponentiate, divide by the sum). The
  reference is jnp's softmax of the same logits. Read as exact operations on extended reals both are ONE function of
  the three argument arrays — entry (r, e) is the gate of row r of x for expert e — because a change of float format
  is the identity, the matrix unit's product into a zero accumulator and the host's dot product are the same sum, the
  lane reductions and the host's reductions are the same fold and the same sum, and taking the maximum with -∞ once
  more changes nothing. No law used needs the inputs finite.

  The three frames: the kernel's region, at either reading of its floats, runs to the end with its argument arrays
  unchanged — the body's run case by case (first point / later points), the scratch's contents carried in the region
  invariant, the array the two streams share dealt between them in half shares; the reference is a straight line of
  host operations. The idealization rewrote nothing, so nothing is owed for it.
-/
import proofs.«145414_g46497315947021_cont_8to1c4_729_11_alg».proof.Defs
import proofs.«145414_g46497315947021_cont_8to1c4_729_11_alg».proof.Proof.Gen.Kernel
import proofs.«145414_g46497315947021_cont_8to1c4_729_11_alg».proof.Proof.Gen.KernelIdeal
import proofs.«145414_g46497315947021_cont_8to1c4_729_11_alg».proof.Proof.Gen.ReferenceIdeal
import proofs.«145414_g46497315947021_cont_8to1c4_729_11_alg».proof.Proof.Gen.Pre_finite_inputs
import proofs.«145414_g46497315947021_cont_8to1c4_729_11_alg».proof.Proof.KBxFrame
import proofs.«145414_g46497315947021_cont_8to1c4_729_11_alg».proof.Proof.GateValue
import proofs.«145414_g46497315947021_cont_8to1c4_729_11_alg».proof.Proof.RefGate

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result term is the gate of its arguments, entry by entry. -/
theorem ref_gate (x0 : (⟨Cert.ReferenceIdeal.S16384x2048, .f32⟩ : BufTy).Contents (Elt Ideal)) (x1 : (⟨Cert.ReferenceIdeal.S64x2048, .f32⟩ : BufTy).Contents (Elt Ideal))
    (x2 : (⟨Cert.ReferenceIdeal.S64, .f32⟩ : BufTy).Contents (Elt Ideal)) :
    Cert.ReferenceIdeal.Read.val_main_v15 (F := Ideal) x0 x1 x2 = Cert.KernelIdeal.Hand.gate x0 x1 x2 := by
  funext i
  obtain ⟨r, e, rfl⟩ : ∃ (r : Fin 16384) (e : Fin 64), i = ix2 r e := ⟨i 0, i 1, eq_ix2 i⟩
  rw [Cert.GateRef.ref_eq, Cert.KernelIdeal.Hand.gate_apply]

/-- At the ideal reading the kernel's result array ends at the gate of its arguments and the reference's at the gate
    of arguments that agree with them: one function. -/
theorem algebraic : Cert.algebraic_KernelIdeal_ReferenceIdeal := by
  intro m ρ m' ρ' _ hagree
  refine ⟨_, Cert.KernelIdeal.Hand.run_gate m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v15_eq]
  exact ref_gate _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
